-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x128 .f32) (main_arg12 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S512x128 : Shape := ⟨2, ![512, 128]⟩
abbrev S50000x1 : Shape := ⟨2, ![50000, 1]⟩

abbrev nBuf : Space → Nat
  | .hbm => 55
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S1x128, .f32⟩
  | .hbm, ⟨31, _⟩ => ⟨S1x128, .f32⟩
  | .hbm, ⟨32, _⟩ => ⟨S50000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S1x128, .f32⟩
  | .hbm, ⟨47, _⟩ => ⟨S1x128, .f32⟩
  | .hbm, ⟨48, _⟩ => ⟨S50000x128, .f32⟩
  | .hbm, ⟨49, _⟩ => ⟨S_, .f32⟩
  | .hbm, ⟨50, _⟩ => ⟨S512x128, .f32⟩
  | .hbm, ⟨51, _⟩ => ⟨S50000x1, .i32⟩
  | .hbm, ⟨52, _⟩ => ⟨S512x128, .f32⟩
  | .hbm, ⟨53, _⟩ => ⟨S1x128, .f32⟩
  | .hbm, ⟨54, _⟩ => ⟨S512x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S512x128, .f32⟩
  | .local _ .vmem, ⟨21, _⟩ => ⟨S128x128, .f32⟩
  | .local _ .vmem, ⟨22, _⟩ => ⟨S1x128, .f32⟩
  | .local _ .vmem, ⟨23, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem1_0 : DmaSem sig := 21
abbrev cc2_sem2_0 : DmaSem sig := 22
abbrev cc2_sem3_0 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S50000_S50000x1_0 : S50000.BroadcastsInDim S50000x1 (![0] : Fin 1 → Fin S50000x1.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S512x128.size a
  hwx2_3 : ∀ i : grid2.Coords, EltTy.bits .f32 = 32 ∨ (Rect.block (s := S512x128) S512x128.size (cc2_transform_3 i) (hinb2_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v32) S512x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S512x128.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S512x128 : Shape := ⟨2, ![512, 128]⟩
abbrev S50000x1 : Shape := ⟨2, ![50000, 1]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S512x128, .f32⟩
  | .hbm, ⟨75, _⟩ => ⟨S50000x1, .i32⟩
  | .hbm, ⟨76, _⟩ => ⟨S512x128, .f32⟩
  | .hbm, ⟨77, _⟩ => ⟨S512x128, .f32⟩
  | .hbm, ⟨78, _⟩ => ⟨S1x128, .f32⟩
  | .hbm, ⟨79, _⟩ => ⟨S512x128, .f32⟩
  | .hbm, ⟨80, _⟩ => ⟨S512x128, .f32⟩
  | .hbm, ⟨81, _⟩ => ⟨S_, .f32⟩
  | .hbm, ⟨82, _⟩ => ⟨S512x128, .f32⟩
  | .hbm, ⟨83, _⟩ => ⟨S512x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_cst : Ref sig .tc := ⟨.hbm, 42, rfl⟩
abbrev main_call1_v0 : Ref sig .tc := ⟨.hbm, 43, rfl⟩
abbrev main_v24 : Ref sig .tc := ⟨.hbm, 44, rfl⟩
abbrev main_c_1 : Ref sig .tc := ⟨.hbm, 45, rfl⟩
abbrev main_v25 : Ref sig .tc := ⟨.hbm, 46, rfl⟩
abbrev main_v26 : Ref sig .tc := ⟨.hbm, 47, rfl⟩
abbrev main_c_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call2_cst : Ref sig .tc := ⟨.hbm, 63, rfl⟩
abbrev main_call2_v0 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call3_cst : Ref sig .tc := ⟨.hbm, 70, rfl⟩
abbrev main_call3_v0 : Ref sig .tc := ⟨.hbm, 71, rfl⟩
abbrev main_v45 : Ref sig .tc := ⟨.hbm, 72, rfl⟩
abbrev main_cst_4 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call4_cst : Ref sig .tc := ⟨.hbm, 81, rfl⟩
abbrev main_call4_v0 : Ref sig .tc := ⟨.hbm, 82, rfl⟩
abbrev main_v53 : Ref sig .tc := ⟨.hbm, 83, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S1x128_S512x128_0_1 : S1x128.BroadcastsInDim S512x128 (![0, 1] : Fin 2 → Fin S512x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

class Facts : Prop extends Facts₀ where

variable [Facts]
-- ==== Proof.KernelRun.lean ====
/-
  The idealized kernel's run with its result named.

  The program is three kernel regions among stretches of host operations. Every weakly fair execution
  terminates without a fault, and in its final state every buffer that outlives the regions holds the last
  boundary's contents: the fold of the host stretches and of the regions' write-backs from the launch
  memory. Read at the result buffer this names the result; read at an argument it gives the argument back,
  since nothing writes an argument.
-/
import proofs.«160936_j26096221290965_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v34) = W6 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v34 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.ValueRun

end
-- ==== Proof.LibPlainDot.lean ====
/-
  The plain matrix product [M, K] × [K, N] → [M, N] (contract the left operand's second axis with the
  right operand's first) read at an entry, over the extended reals: entry (r, n) of the product is
  ∑ k, l (r, k) · r (k, n). Two operations compute it: a vector matrix product into an accumulator that
  is zero everywhere, and the host's dot_general. Both are that one finite sum, hence equal to each
  other; no order of summation and no rounding is left in either, and nothing here needs an entry
  to be finite.
-/
import Idealize.ShloMosaic.PureOps.Ideal.Laws
import Idealize.ShloMosaic.Lib.ValueIdx

noncomputable section

namespace PlainDot

open Idealize.ShloMosaic Idealize.ShloMosaic.ValueIdx

variable {M K N : Nat}

/-- The contraction runs over one axis, of extent `K`. -/
theorem contr_rank : (DotDims.plain M K N).contr.rank = 1 := rfl
theorem contr_size : (DotDims.plain M K N).contr.size ⟨0, by rw [contr_rank]; exact Nat.one_pos⟩ = K := rfl

/-- The left operand is read in the result's row … -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
/-- … at the contraction position; -/
theorem lhs_col (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single rfl j q
/-- the right operand at the contraction position … -/
theorem rhs_row (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single rfl j q
/-- … in the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index, re-indexed by the one coordinate `k : Fin K`: the left operand at
    (row of `j`, `k`) times the right operand at (`k`, column of `j`). -/
theorem sum_contr (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K contr_rank contr_size).symm]
  refine Finset.sum_congr rfl fun k _ => ?_
  have hk := contrEquiv1_symm_val (DotDims.plain M K N) K contr_rank contr_size k
  have el : (DotDims.plain M K N).lhsIdx j ((contrEquiv1 (DotDims.plain M K N) K contr_rank contr_size).symm k) = ix2 (j 0) k :=
    funext fun a => Fin.ext (by
      match a with
      | ⟨0, _⟩ => exact lhs_row _ _
      | ⟨1, _⟩ => exact (lhs_col _ _).trans hk)
  have er : (DotDims.plain M K N).rhsIdx j ((contrEquiv1 (DotDims.plain M K N) K contr_rank contr_size).symm k) = ix2 k (j 1) :=
    funext fun a => Fin.ext (by
      match a with
      | ⟨0, _⟩ => exact (rhs_row _ _).trans hk
      | ⟨1, _⟩ => exact rhs_col _ _)
  exact congrArg₂ (· * ·) (congrArg l el) (congrArg r er)

/-- A vector matrix product into the accumulator that is zero everywhere, at an entry. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr l r j)

/-- The host's dot_general, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr l r j)

end PlainDot

end
-- ==== Proof.Layer.lean ====
/-
  One dense layer followed by the rectifier, over the extended reals, read at an entry.

  For a row `z` of 128 extended reals, a weight matrix `W` of shape [128, 128] and a bias `b` of 128
  entries, the layer's entry `j` is
      max (∑ k, z k · W (k, j) + b j) 0 .
  Two spellings of this function on whole arrays of `R` rows are met: a vector matrix product into a zero
  accumulator, a bias held as a [1, 128] row and broadcast down the rows, and a maximum with a splat of
  zero; and the host's dot_general, a bias of shape [128] broadcast first to [1, 128] and then to
  [R, 128], and a maximum with a broadcast of the scalar zero. Entry (r, j) of either is the layer of row r,
  so the two are one array. Nothing here asks an entry to be finite: only the definition of the sum,
  of the sum's re-indexing, and the reading of a broadcast at an index are used.
-/
import proofs.«160936_j26096221290965_1_alg».proof.Proof.LibPlainDot
import Idealize.ShloMosaic.Lib.Pipeline.Value
import Idealize.ShloMosaic.Lib.ValueIdx

noncomputable section

namespace DenseLayer

open Idealize.ShloMosaic Idealize.ShloMosaic.ValueIdx

/-- The layer on one row. -/
def layer (z : Fin 128 → EReal) (W : (⟨2, ![128, 128]⟩ : Shape).Idx → EReal) (b : (⟨1, ![128]⟩ : Shape).Idx → EReal)
    (j : Fin 128) : EReal :=
  max (∑ k : Fin 128, z k * W (ix2 k j) + b (ix1 j)) 0

/-- The layer applied to every row of an array of `R` rows. -/
def rows {R : Nat} (Z : (⟨2, ![R, 128]⟩ : Shape).Idx → EReal) (W : (⟨2, ![128, 128]⟩ : Shape).Idx → EReal)
    (b : (⟨1, ![128]⟩ : Shape).Idx → EReal) : (⟨2, ![R, 128]⟩ : Shape).Idx → EReal :=
  fun i => layer (fun k => Z (ix2 (i 0) k)) W b (i 1)

/-- The layers applied to every row read one row of their operand at a time: if row `r` of `B` is row `r'` of `A`,
    row `r` of the layer of `B` is row `r'` of the layer of `A`. -/
theorem rows_row {R R' : Nat} (B : (⟨2, ![R, 128]⟩ : Shape).Idx → EReal) (A : (⟨2, ![R', 128]⟩ : Shape).Idx → EReal)
    (W : (⟨2, ![128, 128]⟩ : Shape).Idx → EReal) (b : (⟨1, ![128]⟩ : Shape).Idx → EReal) (r : Fin R) (r' : Fin R') (q : Fin 128)
    (h : ∀ k : Fin 128, B (ix2 r k) = A (ix2 r' k)) :
    rows B W b (ix2 r q) = rows A W b (ix2 r' q) := by
  show layer (fun k => B (ix2 r k)) W b q = layer (fun k => A (ix2 r' k)) W b q
  simp only [h]

/-- The same for two layers on the sum of two arrays. -/
theorem rows_rows_add_row {R R' : Nat} (B0 B1 : (⟨2, ![R, 128]⟩ : Shape).Idx → EReal) (A0 A1 : (⟨2, ![R', 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) (r : Fin R) (r' : Fin R') (q : Fin 128)
    (h0 : ∀ k : Fin 128, B0 (ix2 r k) = A0 (ix2 r' k)) (h1 : ∀ k : Fin 128, B1 (ix2 r k) = A1 (ix2 r' k)) :
    rows (rows (addf (F := Ideal) (s := ⟨2, ![R, 128]⟩) (φ := .f32) B0 B1) W1 b1) W2 b2 (ix2 r q)
      = rows (rows (addf (F := Ideal) (s := ⟨2, ![R', 128]⟩) (φ := .f32) A0 A1) W1 b1) W2 b2 (ix2 r' q) := by
  show layer (fun k' => layer (fun k => B0 (ix2 r k) + B1 (ix2 r k)) W1 b1 k') W2 b2 q
    = layer (fun k' => layer (fun k => A0 (ix2 r' k) + A1 (ix2 r' k)) W1 b1 k') W2 b2 q
  simp only [h0, h1]

/-- A bias held as one row [1, 128], read as a vector of 128 entries. -/
def rowOf (b : (⟨2, ![1, 128]⟩ : Shape).Idx → EReal) : (⟨1, ![128]⟩ : Shape).Idx → EReal :=
  fun q => b (ix2 (0 : Fin 1) (q 0))

theorem rowOf_ix1 (b : (⟨2, ![1, 128]⟩ : Shape).Idx → EReal) (j : Fin 128) : rowOf b (ix1 j) = b (ix2 (0 : Fin 1) j) := rfl

/-- A vector of 128 entries reshaped to one row [1, 128] and read back as a vector is the vector: entry j of the
    vector and entry (0, j) of the row sit at the same row-major position. -/
theorem rowOf_cast (b : (⟨1, ![128]⟩ : Shape).Idx → EReal) (h : (⟨1, ![128]⟩ : Shape).ShapeCasts ⟨2, ![1, 128]⟩) :
    rowOf (shapeCast ⟨2, ![1, 128]⟩ b h) = b := by
  funext q
  unfold rowOf
  refine shapeCast_apply b h (ix2 (0 : Fin 1) (q 0)) q ?_
  rw [Shape.rowMajor_val_one, Shape.rowMajor_val_two]
  show (q 0).val = (0 : Nat) * 128 + (q 0).val
  omega

/-- The vector spelling: product into a zero accumulator, the bias row broadcast down, maximum with a zero splat. -/
def vecForm {R : Nat} (hlt : FTy.bf16.bits < FTy.f32.bits)
    (hc : (⟨2, ![1, 128]⟩ : Shape).ShapeCasts ⟨2, ![1, 128]⟩) (hb : (⟨2, ![1, 128]⟩ : Shape).Broadcasts ⟨2, ![R, 128]⟩)
    (Z : FVec Ideal ⟨2, ![R, 128]⟩ .f32) (W : FVec Ideal ⟨2, ![128, 128]⟩ .f32) (b : FVec Ideal ⟨2, ![1, 128]⟩ .f32) :
    FVec Ideal ⟨2, ![R, 128]⟩ .f32 :=
  maximumf
    (addf (matmul (F := Ideal) (DotDims.plain R 128 128) none (truncf .bf16 Z hlt) (truncf .bf16 W hlt)
        (constant (F := Ideal) ⟨2, ![R, 128]⟩ .f32 0x00000000#32))
      (broadcastTo ⟨2, ![R, 128]⟩ (shapeCast ⟨2, ![1, 128]⟩ b hc) hb))
    (broadcast ⟨2, ![R, 128]⟩ (Scalar.ofBits (F := Ideal) .f32 0x00000000#32))

/-- The bias row broadcast down the rows, at an entry. -/
theorem biasRow_apply {R : Nat} (hc : (⟨2, ![1, 128]⟩ : Shape).ShapeCasts ⟨2, ![1, 128]⟩)
    (hb : (⟨2, ![1, 128]⟩ : Shape).Broadcasts ⟨2, ![R, 128]⟩) (b : (⟨2, ![1, 128]⟩ : Shape).Idx → EReal) (r : Fin R) (j : Fin 128) :
    broadcastTo ⟨2, ![R, 128]⟩ (shapeCast ⟨2, ![1, 128]⟩ b hc) hb (ix2 r j) = b (ix2 (0 : Fin 1) j) := by
  rw [shapeCast_self]
  refine broadcastTo_apply b hb (ix2 r j) (ix2 (0 : Fin 1) j) fun a => ?_
  match a with
  | ⟨0, _⟩ => rfl
  | ⟨1, _⟩ => rfl

theorem vecForm_apply {R : Nat} (hlt : FTy.bf16.bits < FTy.f32.bits)
    (hc : (⟨2, ![1, 128]⟩ : Shape).ShapeCasts ⟨2, ![1, 128]⟩) (hb : (⟨2, ![1, 128]⟩ : Shape).Broadcasts ⟨2, ![R, 128]⟩)
    (Z : FVec Ideal ⟨2, ![R, 128]⟩ .f32) (W : FVec Ideal ⟨2, ![128, 128]⟩ .f32) (b : FVec Ideal ⟨2, ![1, 128]⟩ .f32) :
    vecForm hlt hc hb Z W b = rows Z W (rowOf b) := by
  funext i
  obtain ⟨r, j, rfl⟩ : ∃ (r : Fin R) (j : Fin 128), i = ix2 r j := ⟨i 0, i 1, eq_ix2 i⟩
  show max (FloatOps.matmul (DotDims.plain R 128 128) none (truncf .bf16 Z hlt) (truncf .bf16 W hlt)
        (constant (F := Ideal) ⟨2, ![R, 128]⟩ .f32 0x00000000#32) (ix2 r j)
      + broadcastTo ⟨2, ![R, 128]⟩ (shapeCast ⟨2, ![1, 128]⟩ b hc) hb (ix2 r j)) (Ideal.ofBits .f32 0x00000000#32)
    = max (∑ k : Fin 128, Z (ix2 r k) * W (ix2 k j) + b (ix2 (0 : Fin 1) j)) 0
  rw [PlainDot.matmul_zero_apply, biasRow_apply, Ideal.ofBits_zero_f32]
  rfl

/-- The host spelling: dot_general, the bias broadcast in two steps, maximum with the broadcast scalar zero. -/
def hostForm {R : Nat} (h1 : (⟨1, ![128]⟩ : Shape).BroadcastsInDim ⟨2, ![1, 128]⟩ ![1])
    (h2 : (⟨2, ![1, 128]⟩ : Shape).BroadcastsInDim ⟨2, ![R, 128]⟩ ![0, 1])
    (h0 : (⟨0, ![]⟩ : Shape).BroadcastsInDim ⟨2, ![R, 128]⟩ ![])
    (Z : FVec Ideal ⟨2, ![R, 128]⟩ .f32) (W : FVec Ideal ⟨2, ![128, 128]⟩ .f32) (b : FVec Ideal ⟨1, ![128]⟩ .f32) :
    FVec Ideal ⟨2, ![R, 128]⟩ .f32 :=
  maximumf
    (addf (Host.dotGeneral (F := Ideal) (DotDims.plain R 128 128) none Z W)
      (broadcastInDim ⟨2, ![R, 128]⟩ ![0, 1] h2 (broadcastInDim ⟨2, ![1, 128]⟩ ![1] h1 b)))
    (broadcastInDim ⟨2, ![R, 128]⟩ ![] h0 (constant (F := Ideal) ⟨0, ![]⟩ .f32 0x00000000#32))

/-- The bias broadcast in two steps, at an entry. -/
theorem biasTwice_apply {R : Nat} (h1 : (⟨1, ![128]⟩ : Shape).BroadcastsInDim ⟨2, ![1, 128]⟩ ![1])
    (h2 : (⟨2, ![1, 128]⟩ : Shape).BroadcastsInDim ⟨2, ![R, 128]⟩ ![0, 1]) (b : (⟨1, ![128]⟩ : Shape).Idx → EReal)
    (r : Fin R) (j : Fin 128) :
    broadcastInDim ⟨2, ![R, 128]⟩ ![0, 1] h2 (broadcastInDim ⟨2, ![1, 128]⟩ ![1] h1 b) (ix2 r j) = b (ix1 j) := by
  rw [broadcastInDim_apply ![0, 1] h2 _ (ix2 r j) (ix2 (0 : Fin 1) j) (fun a => by
    match a with
    | ⟨0, _⟩ => rfl
    | ⟨1, _⟩ => rfl)]
  exact broadcastInDim_apply ![1] h1 b (ix2 (0 : Fin 1) j) (ix1 j) (fun a => by
    match a with
    | ⟨0, _⟩ => rfl)

theorem hostForm_apply {R : Nat} (h1 : (⟨1, ![128]⟩ : Shape).BroadcastsInDim ⟨2, ![1, 128]⟩ ![1])
    (h2 : (⟨2, ![1, 128]⟩ : Shape).BroadcastsInDim ⟨2, ![R, 128]⟩ ![0, 1])
    (h0 : (⟨0, ![]⟩ : Shape).BroadcastsInDim ⟨2, ![R, 128]⟩ ![])
    (Z : FVec Ideal ⟨2, ![R, 128]⟩ .f32) (W : FVec Ideal ⟨2, ![128, 128]⟩ .f32) (b : FVec Ideal ⟨1, ![128]⟩ .f32) :
    hostForm h1 h2 h0 Z W b = rows Z W b := by
  funext i
  obtain ⟨r, j, rfl⟩ : ∃ (r : Fin R) (j : Fin 128), i = ix2 r j := ⟨i 0, i 1, eq_ix2 i⟩
  show max (FloatOps.dotGeneral (DotDims.plain R 128 128) none .single Z W (ix2 r j)
      + broadcastInDim ⟨2, ![R, 128]⟩ ![0, 1] h2 (broadcastInDim ⟨2, ![1, 128]⟩ ![1] h1 b) (ix2 r j))
      (broadcastInDim ⟨2, ![R, 128]⟩ ![] h0 (constant (F := Ideal) ⟨0, ![]⟩ .f32 0x00000000#32) (ix2 r j))
    = max (∑ k : Fin 128, Z (ix2 r k) * W (ix2 k j) + b (ix1 j)) 0
  rw [PlainDot.dotGeneral_apply, biasTwice_apply]
  have hzero : broadcastInDim ⟨2, ![R, 128]⟩ ![] h0 (constant (F := Ideal) ⟨0, ![]⟩ .f32 0x00000000#32) (ix2 r j) = 0 :=
    (broadcastInDim_apply ![] h0 (constant (F := Ideal) ⟨0, ![]⟩ .f32 0x00000000#32) (ix2 r j) (fun d => d.elim0)
      (fun a => a.elim0)).trans ((constant_apply _ _).trans Ideal.ofBits_zero_f32)
  exact congrArg (max _) hzero

end DenseLayer

end
-- ==== Proof.Network.lean ====
/-
  The network both programs compute, as one function of the argument arrays over the extended reals.

  `neighbourSum x e` is the sum, at every node, of the rows of `x` at the sources of the edges that end in
  it: row 0 of the edge array names each edge's source (a negative entry counted from the end, by adding the
  number of nodes), row 1 its target; the rows gathered at the sources are added into a zero array at the
  targets. `pool h b` adds the rows of `h` into a zero array of 512 rows at the rows `b` names. Neither is
  ever opened: both programs apply the same two operations to the same operands, so it is enough that the
  operands agree.
  One convolution is two dense layers with the rectifier on `x + neighbourSum x e`, row by row; the network
  is two convolutions, the pooling, and one more dense layer with the rectifier.
-/
import proofs.«160936_j26096221290965_1_alg».proof.ReferenceIdeal
import proofs.«160936_j26096221290965_1_alg».proof.Proof.Gen.ReferenceIdeal
import proofs.«160936_j26096221290965_1_alg».proof.Proof.Layer

noncomputable section

namespace Cert.GraphNet

open Cert.ReferenceIdeal Idealize.ShloMosaic Idealize.ShloMosaic.ValueIdx DenseLayer
open Cert.ReferenceIdeal.Facts₀ Cert.ReferenceIdeal.Facts

variable {F : FTy → Type} [FloatOps F]

/-- Row `k` of the edge array as a vector of 800000 node numbers. -/
def sourceRow (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

def targetRow (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The neighbour sum of the rows of `x`, the edges given by their sources `s` and their targets `d`. -/
def neighbourSumAt (x : (⟨S50000x128, .f32⟩ : BufTy).Contents (Elt F)) (s d : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (Host.gather gather_S50000x128_S800000x1_S800000x128_1_0_n_n_0_1_1128 x
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32)))
          s)))

/-- The neighbour sum of the rows of `x` along the edges `e`. -/
def neighbourSum (x : (⟨S50000x128, .f32⟩ : BufTy).Contents (Elt F)) (e : (⟨S2x800000, .i32⟩ : BufTy).Contents (Elt F)) :
    (⟨S50000x128, .f32⟩ : BufTy).Contents (Elt F) :=
  neighbourSumAt x (sourceRow (F := F) e) (targetRow (F := F) e)

/-- The rows of `h` added up per graph: row `n` goes to row `b n` of a zero array of 512 rows. -/
def pool (h : (⟨S50000x128, .f32⟩ : BufTy).Contents (Elt F)) (b : (⟨S50000, .i32⟩ : BufTy).Contents (Elt F)) :
    (⟨S512x128, .f32⟩ : BufTy).Contents (Elt F) :=
  Host.scatterAdd scatter_S512x128_S50000x1_S50000x128_1_0_0_1
    (broadcastInDim S512x128 ![] bcast_S_S512x128 (constant S_ .f32 0x00000000#32))
    (broadcastInDim S50000x1 ![0] bcast_S50000_S50000x1_0 b) h

/-- One convolution: two dense layers with the rectifier on `x + neighbourSum x e`, row by row. -/
def conv (x : FVec Ideal S50000x128 .f32) (e : (⟨S2x800000, .i32⟩ : BufTy).Contents (Elt Ideal))
    (Wa : FVec Ideal S128x128 .f32) (ba : FVec Ideal S128 .f32) (Wb : FVec Ideal S128x128 .f32) (bb : FVec Ideal S128 .f32) :
    FVec Ideal S50000x128 .f32 :=
  rows (rows (addf x (neighbourSum (F := Ideal) x e)) Wa ba) Wb bb

/-- The network. -/
def net (x : FVec Ideal S50000x128 .f32) (e : (⟨S2x800000, .i32⟩ : BufTy).Contents (Elt Ideal))
    (b : (⟨S50000, .i32⟩ : BufTy).Contents (Elt Ideal))
    (W1a : FVec Ideal S128x128 .f32) (b1a : FVec Ideal S128 .f32) (W1b : FVec Ideal S128x128 .f32) (b1b : FVec Ideal S128 .f32)
    (W2a : FVec Ideal S128x128 .f32) (b2a : FVec Ideal S128 .f32) (W2b : FVec Ideal S128x128 .f32) (b2b : FVec Ideal S128 .f32)
    (Wfc : FVec Ideal S128x128 .f32) (bfc : FVec Ideal S128 .f32) : FVec Ideal S512x128 .f32 :=
  rows (pool (F := Ideal) (conv (conv x e W1a b1a W1b b1b) e W2a b2a W2b b2b) b) Wfc bfc

/-- The host's spelling of a dense layer with the rectifier, on the 50000 node rows. -/
def hostNodes (Z : FVec Ideal S50000x128 .f32) (W : FVec Ideal S128x128 .f32) (b : FVec Ideal S128 .f32) : FVec Ideal S50000x128 .f32 :=
  maximumf (addf (Host.dotGeneral dot_S50000x128_S128x128_S50000x128_1_0_0_1_n_n none Z W)
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-- It is the layer row by row. -/
theorem hostNodes_eq (Z : FVec Ideal S50000x128 .f32) (W : FVec Ideal S128x128 .f32) (b : FVec Ideal S128 .f32) :
    hostNodes Z W b = rows Z W b :=
  hostForm_apply (R := 50000) bcast_S128_S1x128_1 bcast_S1x128_S50000x128_0_1 bcast_S_S50000x128 Z W b

/-- The same spelling on the 512 pooled rows. -/
def hostGraphs (Z : FVec Ideal S512x128 .f32) (W : FVec Ideal S128x128 .f32) (b : FVec Ideal S128 .f32) : FVec Ideal S512x128 .f32 :=
  maximumf (addf (Host.dotGeneral dot_S512x128_S128x128_S512x128_1_0_0_1_n_n none Z W)
      (broadcastInDim S512x128 ![0, 1] bcast_S1x128_S512x128_0_1 (broadcastInDim S1x128 ![1] bcast_S128_S1x128_1 b)))
    (broadcastInDim S512x128 ![] bcast_S_S512x128 (constant (F := Ideal) S_ .f32 0x00000000#32))

theorem hostGraphs_eq (Z : FVec Ideal S512x128 .f32) (W : FVec Ideal S128x128 .f32) (b : FVec Ideal S128 .f32) :
    hostGraphs Z W b = rows Z W b :=
  hostForm_apply (R := 512) bcast_S128_S1x128_1 bcast_S1x128_S512x128_0_1 bcast_S_S512x128 Z W b

/-- One convolution in the host's spelling. -/
def convHost (x : FVec Ideal S50000x128 .f32) (e : (⟨S2x800000, .i32⟩ : BufTy).Contents (Elt Ideal))
    (Wa : FVec Ideal S128x128 .f32) (ba : FVec Ideal S128 .f32) (Wb : FVec Ideal S128x128 .f32) (bb : FVec Ideal S128 .f32) :
    FVec Ideal S50000x128 .f32 :=
  hostNodes (hostNodes (addf x (neighbourSum (F := Ideal) x e)) Wa ba) Wb bb

theorem convHost_eq (x : FVec Ideal S50000x128 .f32) (e : (⟨S2x800000, .i32⟩ : BufTy).Contents (Elt Ideal))
    (Wa : FVec Ideal S128x128 .f32) (ba : FVec Ideal S128 .f32) (Wb : FVec Ideal S128x128 .f32) (bb : FVec Ideal S128 .f32) :
    convHost x e Wa ba Wb bb = conv x e Wa ba Wb bb := by
  unfold convHost conv
  rw [hostNodes_eq, hostNodes_eq]

/-- The network in the host's spelling. -/
def netHost (x : FVec Ideal S50000x128 .f32) (e : (⟨S2x800000, .i32⟩ : BufTy).Contents (Elt Ideal))
    (b : (⟨S50000, .i32⟩ : BufTy).Contents (Elt Ideal))
    (W1a : FVec Ideal S128x128 .f32) (b1a : FVec Ideal S128 .f32) (W1b : FVec Ideal S128x128 .f32) (b1b : FVec Ideal S128 .f32)
    (W2a : FVec Ideal S128x128 .f32) (b2a : FVec Ideal S128 .f32) (W2b : FVec Ideal S128x128 .f32) (b2b : FVec Ideal S128 .f32)
    (Wfc : FVec Ideal S128x128 .f32) (bfc : FVec Ideal S128 .f32) : FVec Ideal S512x128 .f32 :=
  hostGraphs (pool (F := Ideal) (convHost (convHost x e W1a b1a W1b b1b) e W2a b2a W2b b2b) b) Wfc bfc

theorem netHost_eq (x : FVec Ideal S50000x128 .f32) (e : (⟨S2x800000, .i32⟩ : BufTy).Contents (Elt Ideal))
    (b : (⟨S50000, .i32⟩ : BufTy).Contents (Elt Ideal))
    (W1a : FVec Ideal S128x128 .f32) (b1a : FVec Ideal S128 .f32) (W1b : FVec Ideal S128x128 .f32) (b1b : FVec Ideal S128 .f32)
    (W2a : FVec Ideal S128x128 .f32) (b2a : FVec Ideal S128 .f32) (W2b : FVec Ideal S128x128 .f32) (b2b : FVec Ideal S128 .f32)
    (Wfc : FVec Ideal S128x128 .f32) (bfc : FVec Ideal S128 .f32) :
    netHost x e b W1a b1a W1b b1b W2a b2a W2b b2b Wfc bfc = net x e b W1a b1a W1b b1b W2a b2a W2b b2b Wfc bfc := by
  unfold netHost net
  rw [hostGraphs_eq, convHost_eq, convHost_eq]

end Cert.GraphNet

end
-- ==== Proof.HostStretches.lean ====
/-
  The idealized kernel's three stretches of host operations, read at the buffers the regions consume.

  The first stretch splits the edge array into its source and target rows, forms the neighbour sum of the
  node features, and reshapes two bias vectors to rows [1, 128]; it writes no argument. The second forms
  the neighbour sum of the first convolution's result from the same two index rows and reshapes two more
  biases. The third pools the second convolution's result per graph and reshapes the last bias. Each is
  stated for the contents `X` the stretch starts from, whatever they are; a buffer a stretch does not
  write keeps its contents.
-/
import proofs.«160936_j26096221290965_1_alg».proof.Proof.Gen.KernelIdeal.Launch
import proofs.«160936_j26096221290965_1_alg».proof.Proof.Network
import Idealize.ShloMosaic.Lib.StableHlo.Run

set_option maxRecDepth 16384

noncomputable section

namespace Cert.KernelIdeal.HostStretches

open Cert.KernelIdeal Cert.KernelIdeal.Gen Cert.GraphNet
open Idealize.ShloMosaic Idealize.ShloMosaic.TcCoe Idealize.SL.Sem Idealize.ShloMosaic.StableHlo

variable {F : FTy → Type} [FloatOps F]

/-! ## The first stretch -/

set_option maxHeartbeats 2000000 in
/-- The neighbour sum of the node features. -/
theorem first_v13 (X : Valuation τ sig (Elt F)) :
    after (hostOps0 (F := F)) X (Proc.devRef .tc main_v13) = neighbourSum (F := F) (X (Proc.devRef .tc main_arg0)) (X (Proc.devRef .tc main_arg1)) := by
  after_results_simp <;> rfl

set_option maxHeartbeats 2000000 in
/-- A bias vector as a row. -/
theorem first_v14 (X : Valuation τ sig (Elt F)) :
    after (hostOps0 (F := F)) X (Proc.devRef .tc main_v14) = shapeCast S1x128 (X (Proc.devRef .tc main_arg4)) Gen.shapeCasts_S128_S1x128 := by
  after_results_simp <;> rfl

set_option maxHeartbeats 2000000 in
theorem first_v15 (X : Valuation τ sig (Elt F)) :
    after (hostOps0 (F := F)) X (Proc.devRef .tc main_v15) = shapeCast S1x128 (X (Proc.devRef .tc main_arg6)) Gen.shapeCasts_S128_S1x128 := by
  after_results_simp <;> rfl

set_option maxHeartbeats 2000000 in
/-- The edges' sources. -/
theorem first_v1 (X : Valuation τ sig (Elt F)) :
    after (hostOps0 (F := F)) X (Proc.devRef .tc main_v1) = sourceRow (F := F) (X (Proc.devRef .tc main_arg1)) := by
  after_results_simp <;> rfl

set_option maxHeartbeats 2000000 in
/-- The edges' targets. -/
theorem first_v3 (X : Valuation τ sig (Elt F)) :
    after (hostOps0 (F := F)) X (Proc.devRef .tc main_v3) = targetRow (F := F) (X (Proc.devRef .tc main_arg1)) := by
  after_results_simp <;> rfl

set_option maxHeartbeats 2000000 in
theorem first_arg0 (X : Valuation τ sig (Elt F)) :
    after (hostOps0 (F := F)) X (Proc.devRef .tc main_arg0) = X (Proc.devRef .tc main_arg0) := by
  after_results_simp <;> rfl

set_option maxHeartbeats 2000000 in
theorem first_arg2 (X : Valuation τ sig (Elt F)) :
    after (hostOps0 (F := F)) X (Proc.devRef .tc main_arg2) = X (Proc.devRef .tc main_arg2) := by
  after_results_simp <;> rfl

set_option maxHeartbeats 2000000 in
theorem first_arg3 (X : Valuation τ sig (Elt F)) :
    after (hostOps0 (F := F)) X (Proc.devRef .tc main_arg3) = X (Proc.devRef .tc main_arg3) := by
  after_results_simp <;> rfl

set_option maxHeartbeats 2000000 in
theorem first_arg5 (X : Valuation τ sig (Elt F)) :
    after (hostOps0 (F := F)) X (Proc.devRef .tc main_arg5) = X (Proc.devRef .tc main_arg5) := by
  after_results_simp <;> rfl

set_option maxHeartbeats 2000000 in
theorem first_arg7 (X : Valuation τ sig (Elt F)) :
    after (hostOps0 (F := F)) X (Proc.devRef .tc main_arg7) = X (Proc.devRef .tc main_arg7) := by
  after_results_simp <;> rfl

set_option maxHeartbeats 2000000 in
theorem first_arg8 (X : Valuation τ sig (Elt F)) :
    after (hostOps0 (F := F)) X (Proc.devRef .tc main_arg8) = X (Proc.devRef .tc main_arg8) := by
  after_results_simp <;> rfl

set_option maxHeartbeats 2000000 in
theorem first_arg9 (X : Valuation τ sig (Elt F)) :
    after (hostOps0 (F := F)) X (Proc.devRef .tc main_arg9) = X (Proc.devRef .tc main_arg9) := by
  after_results_simp <;> rfl

set_option maxHeartbeats 2000000 in
theorem first_arg10 (X : Valuation τ sig (Elt F)) :
    after (hostOps0 (F := F)) X (Proc.devRef .tc main_arg10) = X (Proc.devRef .tc main_arg10) := by
  after_results_simp <;> rfl

set_option maxHeartbeats 2000000 in
theorem first_arg11 (X : Valuation τ sig (Elt F)) :
    after (hostOps0 (F := F)) X (Proc.devRef .tc main_arg11) = X (Proc.devRef .tc main_arg11) := by
  after_results_simp <;> rfl

set_option maxHeartbeats 2000000 in
theorem first_arg12 (X : Valuation τ sig (Elt F)) :
    after (hostOps0 (F := F)) X (Proc.devRef .tc main_arg12) = X (Proc.devRef .tc main_arg12) := by
  after_results_simp <;> rfl

/-! ## The second stretch -/

set_option maxHeartbeats 2000000 in
/-- The neighbour sum of the first convolution's result, along the same edges. -/
theorem second_v26 (X : Valuation τ sig (Elt F)) :
    after (hostOps1 (F := F)) X (Proc.devRef .tc main_v26) = neighbourSumAt (F := F) (X (Proc.devRef .tc main_v16)) (X (Proc.devRef .tc main_v1)) (X (Proc.devRef .tc main_v3)) := by
  after_results_simp <;> rfl

set_option maxHeartbeats 2000000 in
theorem second_v27 (X : Valuation τ sig (Elt F)) :
    after (hostOps1 (F := F)) X (Proc.devRef .tc main_v27) = shapeCast S1x128 (X (Proc.devRef .tc main_arg8)) Gen.shapeCasts_S128_S1x128 := by
  after_results_simp <;> rfl

set_option maxHeartbeats 2000000 in
theorem second_v28 (X : Valuation τ sig (Elt F)) :
    after (hostOps1 (F := F)) X (Proc.devRef .tc main_v28) = shapeCast S1x128 (X (Proc.devRef .tc main_arg10)) Gen.shapeCasts_S128_S1x128 := by
  after_results_simp <;> rfl

set_option maxHeartbeats 2000000 in
theorem second_v16 (X : Valuation τ sig (Elt F)) :
    after (hostOps1 (F := F)) X (Proc.devRef .tc main_v16) = X (Proc.devRef .tc main_v16) := by
  after_results_simp <;> rfl

set_option maxHeartbeats 2000000 in
theorem second_arg2 (X : Valuation τ sig (Elt F)) :
    after (hostOps1 (F := F)) X (Proc.devRef .tc main_arg2) = X (Proc.devRef .tc main_arg2) := by
  after_results_simp <;> rfl

set_option maxHeartbeats 2000000 in
theorem second_arg7 (X : Valuation τ sig (Elt F)) :
    after (hostOps1 (F := F)) X (Proc.devRef .tc main_arg7) = X (Proc.devRef .tc main_arg7) := by
  after_results_simp <;> rfl

set_option maxHeartbeats 2000000 in
theorem second_arg9 (X : Valuation τ sig (Elt F)) :
    after (hostOps1 (F := F)) X (Proc.devRef .tc main_arg9) = X (Proc.devRef .tc main_arg9) := by
  after_results_simp <;> rfl

set_option maxHeartbeats 2000000 in
theorem second_arg11 (X : Valuation τ sig (Elt F)) :
    after (hostOps1 (F := F)) X (Proc.devRef .tc main_arg11) = X (Proc.devRef .tc main_arg11) := by
  after_results_simp <;> rfl

set_option maxHeartbeats 2000000 in
theorem second_arg12 (X : Valuation τ sig (Elt F)) :
    after (hostOps1 (F := F)) X (Proc.devRef .tc main_arg12) = X (Proc.devRef .tc main_arg12) := by
  after_results_simp <;> rfl

/-! ## The third stretch -/

set_option maxHeartbeats 2000000 in
/-- The second convolution's result pooled per graph. -/
theorem third_v32 (X : Valuation τ sig (Elt F)) :
    after (hostOps2 (F := F)) X (Proc.devRef .tc main_v32) = pool (F := F) (X (Proc.devRef .tc main_v29)) (X (Proc.devRef .tc main_arg2)) := by
  after_results_simp <;> rfl

set_option maxHeartbeats 2000000 in
theorem third_v33 (X : Valuation τ sig (Elt F)) :
    after (hostOps2 (F := F)) X (Proc.devRef .tc main_v33) = shapeCast S1x128 (X (Proc.devRef .tc main_arg12)) Gen.shapeCasts_S128_S1x128 := by
  after_results_simp <;> rfl

set_option maxHeartbeats 2000000 in
theorem third_arg11 (X : Valuation τ sig (Elt F)) :
    after (hostOps2 (F := F)) X (Proc.devRef .tc main_arg11) = X (Proc.devRef .tc main_arg11) := by
  after_results_simp <;> rfl

end Cert.KernelIdeal.HostStretches

end
-- ==== Proof.Blocks0.lean ====
/-
  The first convolution's kernel region: what its result array holds when the region ends, as a function
  of the arrays the region finds.

  The grid has ten points. Point t reads rows 5000·t … 5000·t + 4999 of the node features and of the
  neighbour sums, and the two weight matrices and the two bias rows whole; it writes the same rows of the
  result. What it writes is two dense layers with the rectifier applied to the sum of the two row blocks,
  row by row, and a row of the result depends on the same row of the operands only. So block t of the
  result is block t of the layers applied to the whole arrays, and as the ten blocks cover the array the
  result is that function of the whole arrays.
-/
import proofs.«160936_j26096221290965_1_alg».proof.Proof.Gen.KernelIdeal.Frame
import proofs.«160936_j26096221290965_1_alg».proof.Proof.Layer
import Idealize.ShloMosaic.Lib.Pipeline.Value

set_option maxRecDepth 16384

noncomputable section

namespace Cert.KernelIdeal.Blocks0

open Cert.KernelIdeal Cert.KernelIdeal.Gen DenseLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value: two dense layers with the rectifier on the sum of the two row blocks. -/
theorem payload_eq (x0 x1 : FVec Ideal S5000x128 .f32) (x2 : FVec Ideal S128x128 .f32) (x3 : FVec Ideal S1x128 .f32)
    (x4 : FVec Ideal S128x128 .f32) (x5 : FVec Ideal S1x128 .f32) :
    k0_pay1 (F := Ideal) x0 x1 x2 x3 x4 x5
      = rows (rows (addf (F := Ideal) (s := S5000x128) (φ := .f32) x0 x1) x2 (rowOf x3)) x4 (rowOf x5) := by
  have e : k0_pay1 (F := Ideal) x0 x1 x2 x3 x4 x5
      = vecForm (R := 5000) bitsLt_bf16_f32 shapeCasts_S1x128_S1x128 broadcasts_S1x128_S5000x128
          (vecForm (R := 5000) bitsLt_bf16_f32 shapeCasts_S1x128_S1x128 broadcasts_S1x128_S5000x128
            (addf (F := Ideal) (s := S5000x128) (φ := .f32) x0 (shapeCast S5000x128 x1 shapeCasts_S5000x128_S5000x128)) x2 x3) x4 x5 := rfl
  rw [e, vecForm_apply, vecForm_apply, shapeCast_self]

/-- The result the region leaves, as a function of the arrays it finds. -/
def result (c : Dev nD) : S50000x128.Idx → EReal :=
  rows (rows (addf (F := Ideal) (s := S50000x128) (φ := .f32) (V c main_arg0 : S50000x128.Idx → EReal) (V c main_v13 : S50000x128.Idx → EReal))
    (V c main_arg3 : S128x128.Idx → EReal) (rowOf (V c main_v14 : S1x128.Idx → EReal)))
    (V c main_arg5 : S128x128.Idx → EReal) (rowOf (V c main_v15 : S1x128.Idx → EReal))

/-- Where each window's block sits at point `t`: the row windows at block row `t`, the others at the origin. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A row window's block at point `t`, at (r, k), is the array at row 5000·t + r. -/
theorem rowBlock0 (c : Dev nD) (t : Fin cfg0.N) (r : Fin 5000) (k : Fin 128) (R : Fin 50000) (hR : R.val = 5000 * t.val + r.val) :
    (iblk0 V c 0 t : Vec Ideal S5000x128 .f32) (ix2 r k) = (V c main_arg0 : S50000x128.Idx → EReal) (ix2 R k) := by
  obtain ⟨e0, e1, -⟩ := index_facts t
  unfold iblk0
  rw [View.read_apply]
  show V c main_arg0 _ = V c main_arg0 _
  congr 1
  funext a
  apply Fin.ext
  match a with
  | ⟨0, _⟩ => show win0_0.index t 0 * 5000 + 1 * r.val = R.val; rw [e0, hR]; omega
  | ⟨1, _⟩ => show win0_0.index t 1 * 128 + 1 * k.val = k.val; rw [e1]; omega

/-- The same for the neighbour sums' window. -/
theorem rowBlock1 (c : Dev nD) (t : Fin cfg0.N) (r : Fin 5000) (k : Fin 128) (R : Fin 50000) (hR : R.val = 5000 * t.val + r.val) :
    (iblk0 V c 1 t : Vec Ideal S5000x128 .f32) (ix2 r k) = (V c main_v13 : S50000x128.Idx → EReal) (ix2 R k) := by
  obtain ⟨-, -, e0, e1, -⟩ := index_facts t
  unfold iblk0
  rw [View.read_apply]
  show V c main_v13 _ = V c main_v13 _
  congr 1
  funext a
  apply Fin.ext
  match a with
  | ⟨0, _⟩ => show win0_1.index t 0 * 5000 + 1 * r.val = R.val; rw [e0, hR]; omega
  | ⟨1, _⟩ => show win0_1.index t 1 * 128 + 1 * k.val = k.val; rw [e1]; omega

/-- Window 2 is one block, the whole array, at every point. -/
theorem whole2 (c : Dev nD) (t : Fin cfg0.N) : (iblk0 V c 2 t : Vec Ideal S128x128 .f32) = (V c main_arg3 : S128x128.Idx → EReal) := by
  obtain ⟨-, -, -, -, e0, e1, -⟩ := index_facts t
  funext y
  unfold iblk0
  rw [View.read_apply]
  show V c main_arg3 _ = V c main_arg3 _
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- Window 3 is one block, the whole array, at every point. -/
theorem whole3 (c : Dev nD) (t : Fin cfg0.N) : (iblk0 V c 3 t : Vec Ideal S1x128 .f32) = (V c main_v14 : S1x128.Idx → EReal) := by
  obtain ⟨-, -, -, -, -, -, e0, e1, -⟩ := index_facts t
  funext y
  unfold iblk0
  rw [View.read_apply]
  show V c main_v14 _ = V c main_v14 _
  congr 1
  funext a
  apply Fin.ext
  match a with
  | ⟨0, _⟩ => show win0_3.index t 0 * 1 + 1 * (y 0).val = (y 0).val; rw [e0]; omega
  | ⟨1, _⟩ => show win0_3.index t 1 * 128 + 1 * (y 1).val = (y 1).val; rw [e1]; omega

/-- Window 4 is one block, the whole array, at every point. -/
theorem whole4 (c : Dev nD) (t : Fin cfg0.N) : (iblk0 V c 4 t : Vec Ideal S128x128 .f32) = (V c main_arg5 : S128x128.Idx → EReal) := by
  obtain ⟨-, -, -, -, -, -, -, -, e0, e1, -⟩ := index_facts t
  funext y
  unfold iblk0
  rw [View.read_apply]
  show V c main_arg5 _ = V c main_arg5 _
  congr 1
  funext a
  apply Fin.ext
  match a with
  | ⟨0, _⟩ => show win0_4.index t 0 * 128 + 1 * (y 0).val = (y 0).val; rw [e0]; omega
  | ⟨1, _⟩ => show win0_4.index t 1 * 128 + 1 * (y 1).val = (y 1).val; rw [e1]; omega

/-- Window 5 is one block, the whole array, at every point. -/
theorem whole5 (c : Dev nD) (t : Fin cfg0.N) : (iblk0 V c 5 t : Vec Ideal S1x128 .f32) = (V c main_v15 : S1x128.Idx → EReal) := by
  obtain ⟨-, -, -, -, -, -, -, -, -, -, e0, e1, -⟩ := index_facts t
  funext y
  unfold iblk0
  rw [View.read_apply]
  show V c main_v15 _ = V c main_v15 _
  congr 1
  funext a
  apply Fin.ext
  match a with
  | ⟨0, _⟩ => show win0_5.index t 0 * 1 + 1 * (y 0).val = (y 0).val; rw [e0]; omega
  | ⟨1, _⟩ => show win0_5.index t 1 * 128 + 1 * (y 1).val = (y 1).val; rw [e1]; omega

/-- What point `t` writes back is block `t` of `result`. -/
theorem flushed_eq (c : Dev nD) (t : Fin cfg0.N) :
    (dat0 (F := Ideal) V c).flushed 6 t = ((cfg0.win 6).blk t).view.read (Elt Ideal) (result V c) := by
  show (cfg0.win 6).cut (grid0.coords t) ((dat0 (F := Ideal) V c).after 6 t) = _
  rw [after0_6]
  unfold out0_6
  rw [View.canon_unit_zero hz]
  simp only [View.ld_unit_zero (S := S5000x128) hz, View.ld_unit_zero (S := S128x128) hz, View.ld_unit_zero (S := S1x128) hz]
  rw [payload_eq, whole2, whole3, whole4, whole5]
  have ht : t.val < 10 := lt_of_lt_of_eq t.isLt N_0
  obtain ⟨-, -, -, -, -, -, -, -, -, -, -, -, e0, e1⟩ := index_facts t
  funext j
  obtain ⟨r, q, rfl⟩ : ∃ (r : Fin 5000) (q : Fin 128), j = ix2 r q := ⟨j 0, j 1, eq_ix2 j⟩
  have hemb : ((cfg0.win 6).blk t).view.emb (ix2 r q) = ix2 (⟨5000 * t.val + r.val, by omega⟩ : Fin 50000) q := by
    funext a
    apply Fin.ext
    match a with
    | ⟨0, _⟩ => show win0_6.index t 0 * 5000 + 1 * r.val = 5000 * t.val + r.val; rw [e0]; omega
    | ⟨1, _⟩ => show win0_6.index t 1 * 128 + 1 * q.val = q.val; rw [e1]; omega
  show rows _ _ _ (ix2 r q) = result V c (((cfg0.win 6).blk t).view.emb (ix2 r q))
  rw [hemb]
  exact rows_rows_add_row (R := 5000) (R' := 50000) (iblk0 V c 0 t) (iblk0 V c 1 t) (V c main_arg0) (V c main_v13)
    (V c main_arg3) (rowOf (V c main_v14)) (V c main_arg5) (rowOf (V c main_v15)) r ⟨5000 * t.val + r.val, by omega⟩ q
    (fun k => rowBlock0 V c t r k _ rfl) (fun k => rowBlock1 V c t r k _ rfl)

/-- An index is in point `t`'s block of the result iff each coordinate is in the block's range on its axis. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v16).slice (win0_6.rect t)).set ↔ _
  rw [View.set_slice_whole, Rect.mem_set_unit]
  exact Iff.rfl

/-- Every row is in some point's block: row r in the block of point r / 5000. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ : ∃ t : Fin cfg0.N, t.val = (i 0).val / 5000 := ⟨⟨(i 0).val / 5000, by rw [show cfg0.N = 10 from N_0]; omega⟩, rfl⟩
  obtain ⟨-, -, -, -, -, -, -, -, -, -, -, -, e0, e1⟩ := index_facts t
  refine ⟨t, flush0_6 t, ?_⟩
  rw [mem_blk]
  intro a
  match a with
  | ⟨0, _⟩ => show win0_6.index t 0 * 5000 ≤ (i 0).val ∧ (i 0).val < win0_6.index t 0 * 5000 + 5000; rw [e0, ht]; omega
  | ⟨1, _⟩ => show win0_6.index t 1 * 128 ≤ (i 1).val ∧ (i 1).val < win0_6.index t 1 * 128 + 128; rw [e1]; omega

/-- The result array when the region ends. -/
theorem final (c : Dev nD) : (dat0 (F := Ideal) V c).arrAt 6 cfg0.N = result V c :=
  (dat0 (F := Ideal) V c).arrAt_eq_of_cover 6 (result V c) (fun t _ => flushed_eq V c t) (cover)

end Cert.KernelIdeal.Blocks0

end
-- ==== Proof.Blocks1.lean ====
/-
  The second convolution's kernel region: what its result array holds when the region ends, as a function
  of the arrays the region finds.

  As for the first: ten points, point t on rows 5000·t … 5000·t + 4999 of the first convolution's result
  and of its neighbour sums, the weights and bias rows whole; what it writes is two dense layers with the
  rectifier on the sum of the two row blocks, row by row, so block t of the result is block t of the layers
  applied to the whole arrays, and the ten blocks cover the array.
-/
import proofs.«160936_j26096221290965_1_alg».proof.Proof.Gen.KernelIdeal.Frame
import proofs.«160936_j26096221290965_1_alg».proof.Proof.Layer
import Idealize.ShloMosaic.Lib.Pipeline.Value

set_option maxRecDepth 16384

noncomputable section

namespace Cert.KernelIdeal.Blocks1

open Cert.KernelIdeal Cert.KernelIdeal.Gen DenseLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value: two dense layers with the rectifier on the sum of the two row blocks. -/
theorem payload_eq (x0 x1 : FVec Ideal S5000x128 .f32) (x2 : FVec Ideal S128x128 .f32) (x3 : FVec Ideal S1x128 .f32)
    (x4 : FVec Ideal S128x128 .f32) (x5 : FVec Ideal S1x128 .f32) :
    k1_pay1 (F := Ideal) x0 x1 x2 x3 x4 x5
      = rows (rows (addf (F := Ideal) (s := S5000x128) (φ := .f32) x0 x1) x2 (rowOf x3)) x4 (rowOf x5) := by
  have e : k1_pay1 (F := Ideal) x0 x1 x2 x3 x4 x5
      = vecForm (R := 5000) bitsLt_bf16_f32 shapeCasts_S1x128_S1x128 broadcasts_S1x128_S5000x128
          (vecForm (R := 5000) bitsLt_bf16_f32 shapeCasts_S1x128_S1x128 broadcasts_S1x128_S5000x128
            (addf (F := Ideal) (s := S5000x128) (φ := .f32) (shapeCast S5000x128 x0 shapeCasts_S5000x128_S5000x128)
              (shapeCast S5000x128 x1 shapeCasts_S5000x128_S5000x128)) x2 x3) x4 x5 := rfl
  rw [e, vecForm_apply, vecForm_apply, shapeCast_self, shapeCast_self]

/-- The result the region leaves, as a function of the arrays it finds. -/
def result (c : Dev nD) : S50000x128.Idx → EReal :=
  rows (rows (addf (F := Ideal) (s := S50000x128) (φ := .f32) (V c main_v16 : S50000x128.Idx → EReal) (V c main_v26 : S50000x128.Idx → EReal))
    (V c main_arg7 : S128x128.Idx → EReal) (rowOf (V c main_v27 : S1x128.Idx → EReal)))
    (V c main_arg9 : S128x128.Idx → EReal) (rowOf (V c main_v28 : S1x128.Idx → EReal))

/-- Where each window's block sits at point `t`: the row windows at block row `t`, the others at the origin. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A row window's block at point `t`, at (r, k), is the array at row 5000·t + r. -/
theorem rowBlock0 (c : Dev nD) (t : Fin cfg1.N) (r : Fin 5000) (k : Fin 128) (R : Fin 50000) (hR : R.val = 5000 * t.val + r.val) :
    (iblk1 V c 0 t : Vec Ideal S5000x128 .f32) (ix2 r k) = (V c main_v16 : S50000x128.Idx → EReal) (ix2 R k) := by
  obtain ⟨e0, e1, -⟩ := index_facts t
  unfold iblk1
  rw [View.read_apply]
  show V c main_v16 _ = V c main_v16 _
  congr 1
  funext a
  apply Fin.ext
  match a with
  | ⟨0, _⟩ => show win1_0.index t 0 * 5000 + 1 * r.val = R.val; rw [e0, hR]; omega
  | ⟨1, _⟩ => show win1_0.index t 1 * 128 + 1 * k.val = k.val; rw [e1]; omega

/-- The same for the neighbour sums' window. -/
theorem rowBlock1 (c : Dev nD) (t : Fin cfg1.N) (r : Fin 5000) (k : Fin 128) (R : Fin 50000) (hR : R.val = 5000 * t.val + r.val) :
    (iblk1 V c 1 t : Vec Ideal S5000x128 .f32) (ix2 r k) = (V c main_v26 : S50000x128.Idx → EReal) (ix2 R k) := by
  obtain ⟨-, -, e0, e1, -⟩ := index_facts t
  unfold iblk1
  rw [View.read_apply]
  show V c main_v26 _ = V c main_v26 _
  congr 1
  funext a
  apply Fin.ext
  match a with
  | ⟨0, _⟩ => show win1_1.index t 0 * 5000 + 1 * r.val = R.val; rw [e0, hR]; omega
  | ⟨1, _⟩ => show win1_1.index t 1 * 128 + 1 * k.val = k.val; rw [e1]; omega

/-- Window 2 is one block, the whole array, at every point. -/
theorem whole2 (c : Dev nD) (t : Fin cfg1.N) : (iblk1 V c 2 t : Vec Ideal S128x128 .f32) = (V c main_arg7 : S128x128.Idx → EReal) := by
  obtain ⟨-, -, -, -, e0, e1, -⟩ := index_facts t
  funext y
  unfold iblk1
  rw [View.read_apply]
  show V c main_arg7 _ = V c main_arg7 _
  congr 1
  funext a
  apply Fin.ext
  match a with
  | ⟨0, _⟩ => show win1_2.index t 0 * 128 + 1 * (y 0).val = (y 0).val; rw [e0]; omega
  | ⟨1, _⟩ => show win1_2.index t 1 * 128 + 1 * (y 1).val = (y 1).val; rw [e1]; omega

/-- Window 3 is one block, the whole array, at every point. -/
theorem whole3 (c : Dev nD) (t : Fin cfg1.N) : (iblk1 V c 3 t : Vec Ideal S1x128 .f32) = (V c main_v27 : S1x128.Idx → EReal) := by
  obtain ⟨-, -, -, -, -, -, e0, e1, -⟩ := index_facts t
  funext y
  unfold iblk1
  rw [View.read_apply]
  show V c main_v27 _ = V c main_v27 _
  congr 1
  funext a
  apply Fin.ext
  match a with
  | ⟨0, _⟩ => show win1_3.index t 0 * 1 + 1 * (y 0).val = (y 0).val; rw [e0]; omega
  | ⟨1, _⟩ => show win1_3.index t 1 * 128 + 1 * (y 1).val = (y 1).val; rw [e1]; omega

/-- Window 4 is one block, the whole array, at every point. -/
theorem whole4 (c : Dev nD) (t : Fin cfg1.N) : (iblk1 V c 4 t : Vec Ideal S128x128 .f32) = (V c main_arg9 : S128x128.Idx → EReal) := by
  obtain ⟨-, -, -, -, -, -, -, -, e0, e1, -⟩ := index_facts t
  funext y
  unfold iblk1
  rw [View.read_apply]
  show V c main_arg9 _ = V c main_arg9 _
  congr 1
  funext a
  apply Fin.ext
  match a with
  | ⟨0, _⟩ => show win1_4.index t 0 * 128 + 1 * (y 0).val = (y 0).val; rw [e0]; omega
  | ⟨1, _⟩ => show win1_4.index t 1 * 128 + 1 * (y 1).val = (y 1).val; rw [e1]; omega

/-- Window 5 is one block, the whole array, at every point. -/
theorem whole5 (c : Dev nD) (t : Fin cfg1.N) : (iblk1 V c 5 t : Vec Ideal S1x128 .f32) = (V c main_v28 : S1x128.Idx → EReal) := by
  obtain ⟨-, -, -, -, -, -, -, -, -, -, e0, e1, -⟩ := index_facts t
  funext y
  unfold iblk1
  rw [View.read_apply]
  show V c main_v28 _ = V c main_v28 _
  congr 1
  funext a
  apply Fin.ext
  match a with
  | ⟨0, _⟩ => show win1_5.index t 0 * 1 + 1 * (y 0).val = (y 0).val; rw [e0]; omega
  | ⟨1, _⟩ => show win1_5.index t 1 * 128 + 1 * (y 1).val = (y 1).val; rw [e1]; omega

/-- What point `t` writes back is block `t` of `result`. -/
theorem flushed_eq (c : Dev nD) (t : Fin cfg1.N) :
    (dat1 (F := Ideal) V c).flushed 6 t = ((cfg1.win 6).blk t).view.read (Elt Ideal) (result V c) := by
  show (cfg1.win 6).cut (grid1.coords t) ((dat1 (F := Ideal) V c).after 6 t) = _
  rw [after1_6]
  unfold out1_6
  rw [View.canon_unit_zero hz]
  simp only [View.ld_unit_zero (S := S5000x128) hz, View.ld_unit_zero (S := S128x128) hz, View.ld_unit_zero (S := S1x128) hz]
  rw [payload_eq, whole2, whole3, whole4, whole5]
  have ht : t.val < 10 := lt_of_lt_of_eq t.isLt N_1
  obtain ⟨-, -, -, -, -, -, -, -, -, -, -, -, e0, e1⟩ := index_facts t
  funext j
  obtain ⟨r, q, rfl⟩ : ∃ (r : Fin 5000) (q : Fin 128), j = ix2 r q := ⟨j 0, j 1, eq_ix2 j⟩
  have hemb : ((cfg1.win 6).blk t).view.emb (ix2 r q) = ix2 (⟨5000 * t.val + r.val, by omega⟩ : Fin 50000) q := by
    funext a
    apply Fin.ext
    match a with
    | ⟨0, _⟩ => show win1_6.index t 0 * 5000 + 1 * r.val = 5000 * t.val + r.val; rw [e0]; omega
    | ⟨1, _⟩ => show win1_6.index t 1 * 128 + 1 * q.val = q.val; rw [e1]; omega
  show rows _ _ _ (ix2 r q) = result V c (((cfg1.win 6).blk t).view.emb (ix2 r q))
  rw [hemb]
  exact rows_rows_add_row (R := 5000) (R' := 50000) (iblk1 V c 0 t) (iblk1 V c 1 t) (V c main_v16) (V c main_v26)
    (V c main_arg7) (rowOf (V c main_v27)) (V c main_arg9) (rowOf (V c main_v28)) r ⟨5000 * t.val + r.val, by omega⟩ q
    (fun k => rowBlock0 V c t r k _ rfl) (fun k => rowBlock1 V c t r k _ rfl)

/-- An index is in point `t`'s block of the result iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v29).slice (win1_6.rect t)).set ↔ _
  rw [View.set_slice_whole, Rect.mem_set_unit]
  exact Iff.rfl

/-- Every row is in some point's block: row r in the block of point r / 5000. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ : ∃ t : Fin cfg1.N, t.val = (i 0).val / 5000 := ⟨⟨(i 0).val / 5000, by rw [show cfg1.N = 10 from N_1]; omega⟩, rfl⟩
  obtain ⟨-, -, -, -, -, -, -, -, -, -, -, -, e0, e1⟩ := index_facts t
  refine ⟨t, flush1_6 t, ?_⟩
  rw [mem_blk]
  intro a
  match a with
  | ⟨0, _⟩ => show win1_6.index t 0 * 5000 ≤ (i 0).val ∧ (i 0).val < win1_6.index t 0 * 5000 + 5000; rw [e0, ht]; omega
  | ⟨1, _⟩ => show win1_6.index t 1 * 128 ≤ (i 1).val ∧ (i 1).val < win1_6.index t 1 * 128 + 128; rw [e1]; omega

/-- The result array when the region ends. -/
theorem final (c : Dev nD) : (dat1 (F := Ideal) V c).arrAt 6 cfg1.N = result V c :=
  (dat1 (F := Ideal) V c).arrAt_eq_of_cover 6 (result V c) (fun t _ => flushed_eq V c t) (cover)

end Cert.KernelIdeal.Blocks1

end
-- ==== Proof.Blocks2.lean ====
/-
  The last kernel region: what its result array holds when the region ends, as a function of the arrays
  the region finds.

  The grid has one point, and every window is one block, its whole array: the 512 pooled rows, the weight
  matrix, the bias row, and the result. What the point writes is one dense layer with the rectifier on
  the pooled rows, row by row; the one block is the array, so that is the result.
-/
import proofs.«160936_j26096221290965_1_alg».proof.Proof.Gen.KernelIdeal.Frame
import proofs.«160936_j26096221290965_1_alg».proof.Proof.Layer
import Idealize.ShloMosaic.Lib.Pipeline.Value

set_option maxRecDepth 16384

noncomputable section

namespace Cert.KernelIdeal.Blocks2

open Cert.KernelIdeal Cert.KernelIdeal.Gen DenseLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value: one dense layer with the rectifier on the pooled rows. -/
theorem payload_eq (x0 : FVec Ideal S512x128 .f32) (x1 : FVec Ideal S128x128 .f32) (x2 : FVec Ideal S1x128 .f32) :
    k2_pay1 (F := Ideal) x0 x1 x2 = rows x0 x1 (rowOf x2) := by
  have e : k2_pay1 (F := Ideal) x0 x1 x2
      = vecForm (R := 512) bitsLt_bf16_f32 shapeCasts_S1x128_S1x128 broadcasts_S1x128_S512x128
          (shapeCast S512x128 x0 shapeCasts_S512x128_S512x128) x1 x2 := rfl
  rw [e, vecForm_apply, shapeCast_self]

/-- The result the region leaves, as a function of the arrays it finds. -/
def result (c : Dev nD) : S512x128.Idx → EReal :=
  rows (V c main_v32 : S512x128.Idx → EReal) (V c main_arg11 : S128x128.Idx → EReal) (rowOf (V c main_v33 : S1x128.Idx → EReal))

/-- Every window's one block sits at the origin. -/
theorem index_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- Window 0 is one block, the whole array. -/
theorem whole0 (c : Dev nD) (t : Fin cfg2.N) : (iblk2 V c 0 t : Vec Ideal S512x128 .f32) = (V c main_v32 : S512x128.Idx → EReal) := by
  obtain ⟨e0, e1, -⟩ := index_facts t
  funext y
  unfold iblk2
  rw [View.read_apply]
  show V c main_v32 _ = V c main_v32 _
  congr 1
  funext a
  apply Fin.ext
  match a with
  | ⟨0, _⟩ => show win2_0.index t 0 * 512 + 1 * (y 0).val = (y 0).val; rw [e0]; omega
  | ⟨1, _⟩ => show win2_0.index t 1 * 128 + 1 * (y 1).val = (y 1).val; rw [e1]; omega

/-- Window 1 is one block, the whole array. -/
theorem whole1 (c : Dev nD) (t : Fin cfg2.N) : (iblk2 V c 1 t : Vec Ideal S128x128 .f32) = (V c main_arg11 : S128x128.Idx → EReal) := by
  obtain ⟨-, -, e0, e1, -⟩ := index_facts t
  funext y
  unfold iblk2
  rw [View.read_apply]
  show V c main_arg11 _ = V c main_arg11 _
  congr 1
  funext a
  apply Fin.ext
  match a with
  | ⟨0, _⟩ => show win2_1.index t 0 * 128 + 1 * (y 0).val = (y 0).val; rw [e0]; omega
  | ⟨1, _⟩ => show win2_1.index t 1 * 128 + 1 * (y 1).val = (y 1).val; rw [e1]; omega

/-- Window 2 is one block, the whole array. -/
theorem whole2 (c : Dev nD) (t : Fin cfg2.N) : (iblk2 V c 2 t : Vec Ideal S1x128 .f32) = (V c main_v33 : S1x128.Idx → EReal) := by
  obtain ⟨-, -, -, -, e0, e1, -⟩ := index_facts t
  funext y
  unfold iblk2
  rw [View.read_apply]
  show V c main_v33 _ = V c main_v33 _
  congr 1
  funext a
  apply Fin.ext
  match a with
  | ⟨0, _⟩ => show win2_2.index t 0 * 1 + 1 * (y 0).val = (y 0).val; rw [e0]; omega
  | ⟨1, _⟩ => show win2_2.index t 1 * 128 + 1 * (y 1).val = (y 1).val; rw [e1]; omega

/-- What the point writes back is the one block of `result`. -/
theorem flushed_eq (c : Dev nD) (t : Fin cfg2.N) :
    (dat2 (F := Ideal) V c).flushed 3 t = ((cfg2.win 3).blk t).view.read (Elt Ideal) (result V c) := by
  show (cfg2.win 3).cut (grid2.coords t) ((dat2 (F := Ideal) V c).after 3 t) = _
  rw [after2_3]
  unfold out2_3
  rw [View.canon_unit_zero hz]
  simp only [View.ld_unit_zero (S := S512x128) hz, View.ld_unit_zero (S := S128x128) hz, View.ld_unit_zero (S := S1x128) hz]
  rw [payload_eq, whole0, whole1, whole2]
  obtain ⟨-, -, -, -, -, -, e0, e1⟩ := index_facts t
  funext j
  obtain ⟨r, q, rfl⟩ : ∃ (r : Fin 512) (q : Fin 128), j = ix2 r q := ⟨j 0, j 1, eq_ix2 j⟩
  have hemb : ((cfg2.win 3).blk t).view.emb (ix2 r q) = ix2 r q := by
    funext a
    apply Fin.ext
    match a with
    | ⟨0, _⟩ => show win2_3.index t 0 * 512 + 1 * r.val = r.val; rw [e0]; omega
    | ⟨1, _⟩ => show win2_3.index t 1 * 128 + 1 * q.val = q.val; rw [e1]; omega
  show rows _ _ _ (ix2 r q) = result V c (((cfg2.win 3).blk t).view.emb (ix2 r q))
  rw [hemb]
  rfl

/-- An index is in the point's block of the result iff each coordinate is in the block's range on its axis. -/
theorem mem_blk (t : Fin cfg2.N) (i : S512x128.Idx) :
    i ∈ ((cfg2.win 3).blk t).view.set ↔ ∀ a : Fin 2, win2_3.index t a * S512x128.size a ≤ (i a).val ∧ (i a).val < win2_3.index t a * S512x128.size a + S512x128.size a := by
  show i ∈ ((View.whole main_v34).slice (win2_3.rect t)).set ↔ _
  rw [View.set_slice_whole, Rect.mem_set_unit]
  exact Iff.rfl

/-- The one block is the whole array. -/
theorem cover (i : S512x128.Idx) : ∃ t : Fin cfg2.N, (cfg2.win 3).flush t = true ∧ i ∈ ((cfg2.win 3).blk t).view.set := by
  have hi0 : (i 0).val < 512 := (i 0).isLt
  have hi1 : (i 1).val < 128 := (i 1).isLt
  obtain ⟨-, -, -, -, -, -, e0, e1⟩ := index_facts t2_0
  refine ⟨t2_0, flush2_3 t2_0, ?_⟩
  rw [mem_blk]
  intro a
  match a with
  | ⟨0, _⟩ => show win2_3.index t2_0 0 * 512 ≤ (i 0).val ∧ (i 0).val < win2_3.index t2_0 0 * 512 + 512; rw [e0]; omega
  | ⟨1, _⟩ => show win2_3.index t2_0 1 * 128 ≤ (i 1).val ∧ (i 1).val < win2_3.index t2_0 1 * 128 + 128; rw [e1]; omega

/-- The result array when the region ends. -/
theorem final (c : Dev nD) : (dat2 (F := Ideal) V c).arrAt 3 cfg2.N = result V c :=
  (dat2 (F := Ideal) V c).arrAt_eq_of_cover 3 (result V c) (fun t _ => flushed_eq V c t) (cover)

end Cert.KernelIdeal.Blocks2

end
-- ==== Proof.KernelValue.lean ====
/-
  The idealized kernel's result as the network of its arguments.

  The result buffer ends at the last boundary's contents. Read backwards: the last region's result array is
  the final dense layer on what the third host stretch pooled from the second region's result; that is
  the second convolution's two layers on the first region's result and on its neighbour sum, which the
  second stretch formed along the edge rows the first stretch had split off; the first region's result is
  the first convolution of the node features. No host operation and no region writes an argument or a
  buffer a later stage still reads, so every operand walks back to the launch memory.
-/
import proofs.«160936_j26096221290965_1_alg».proof.Proof.Gen.KernelIdeal.Frame
import proofs.«160936_j26096221290965_1_alg».proof.Proof.HostStretches
import proofs.«160936_j26096221290965_1_alg».proof.Proof.Blocks0
import proofs.«160936_j26096221290965_1_alg».proof.Proof.Blocks1
import proofs.«160936_j26096221290965_1_alg».proof.Proof.Blocks2
import proofs.«160936_j26096221290965_1_alg».proof.Proof.Network

set_option maxRecDepth 16384

noncomputable section

namespace Cert.KernelIdeal.Folded

open Cert.KernelIdeal Cert.KernelIdeal.Gen Cert.GraphNet DenseLayer
open Idealize.ShloMosaic Idealize.ShloMosaic.TcCoe Idealize.SL.Sem
open Cert.KernelIdeal.HostStretches

variable (m : (ℓ : Loc nD τ sig) → Buf (Elt Ideal) ℓ) (ρ : Dev nD → PrngReg) (c : Dev nD)

/-- A buffer the first stretch and the first region leave alone holds, after them, what it was launched with. -/
theorem afterFirst (b : Ref sig .tc) (hb : ∀ w, Pipeline.arrRef spec0 w ≠ b)
    (h0 : StableHlo.after (hostOps0 (F := Ideal)) (W0 m ρ c) (Proc.devRef .tc b) = W0 m ρ c (Proc.devRef .tc b)) :
    W2 m ρ c (Proc.devRef .tc b) = m ((c.tc : Thread nD τ).loc b) :=
  (W2_of_ne m ρ c b hb).trans h0

/-- The same through the second stretch and the second region. -/
theorem afterSecond (b : Ref sig .tc) (hb0 : ∀ w, Pipeline.arrRef spec0 w ≠ b) (hb1 : ∀ w, Pipeline.arrRef spec1 w ≠ b)
    (h0 : StableHlo.after (hostOps0 (F := Ideal)) (W0 m ρ c) (Proc.devRef .tc b) = W0 m ρ c (Proc.devRef .tc b))
    (h1 : StableHlo.after (hostOps1 (F := Ideal)) (W2 m ρ c) (Proc.devRef .tc b) = W2 m ρ c (Proc.devRef .tc b)) :
    W4 m ρ c (Proc.devRef .tc b) = m ((c.tc : Thread nD τ).loc b) :=
  (W4_of_ne m ρ c b hb1).trans (h1.trans (afterFirst m ρ c b hb0 h0))

/-- The first convolution, where the second stretch and the second region find it. -/
theorem conv1 : W2 m ρ c (Proc.devRef .tc main_v16) = conv (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  refine (W2_arr m ρ c 6).trans ?_
  rw [Blocks0.final]
  unfold Blocks0.result conv
  have e0 : V1 m ρ c main_arg0 = (m ((c.tc : Thread nD τ).loc main_arg0)) := first_arg0 (W0 m ρ c)
  have e13 : V1 m ρ c main_v13 = neighbourSum (F := Ideal) (m ((c.tc : Thread nD τ).loc main_arg0)) (m ((c.tc : Thread nD τ).loc main_arg1)) := first_v13 (W0 m ρ c)
  have e3 : V1 m ρ c main_arg3 = (m ((c.tc : Thread nD τ).loc main_arg3)) := first_arg3 (W0 m ρ c)
  have e14 : V1 m ρ c main_v14 = shapeCast S1x128 (m ((c.tc : Thread nD τ).loc main_arg4)) Gen.shapeCasts_S128_S1x128 := first_v14 (W0 m ρ c)
  have e5 : V1 m ρ c main_arg5 = (m ((c.tc : Thread nD τ).loc main_arg5)) := first_arg5 (W0 m ρ c)
  have e15 : V1 m ρ c main_v15 = shapeCast S1x128 (m ((c.tc : Thread nD τ).loc main_arg6)) Gen.shapeCasts_S128_S1x128 := first_v15 (W0 m ρ c)
  rw [e0, e13, e3, e14, e5, e15, rowOf_cast, rowOf_cast]

/-- The edges' sources and targets, where the second stretch finds them. -/
theorem sources : W2 m ρ c (Proc.devRef .tc main_v1) = sourceRow (F := Ideal) (m ((c.tc : Thread nD τ).loc main_arg1)) :=
  (W2_of_ne m ρ c main_v1 (by decide)).trans (first_v1 (W0 m ρ c))
theorem targets : W2 m ρ c (Proc.devRef .tc main_v3) = targetRow (F := Ideal) (m ((c.tc : Thread nD τ).loc main_arg1)) :=
  (W2_of_ne m ρ c main_v3 (by decide)).trans (first_v3 (W0 m ρ c))

/-- The second convolution, where the third stretch finds it. -/
theorem conv2 : W4 m ρ c (Proc.devRef .tc main_v29)
    = conv (conv (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) := by
  refine (W4_arr m ρ c 6).trans ?_
  rw [Blocks1.final]
  unfold Blocks1.result
  have e16 : V3 m ρ c main_v16 = W2 m ρ c (Proc.devRef .tc main_v16) := second_v16 (W2 m ρ c)
  have e26 : V3 m ρ c main_v26 = neighbourSumAt (F := Ideal) (W2 m ρ c (Proc.devRef .tc main_v16)) (W2 m ρ c (Proc.devRef .tc main_v1)) (W2 m ρ c (Proc.devRef .tc main_v3)) :=
    second_v26 (W2 m ρ c)
  have e7 : V3 m ρ c main_arg7 = (m ((c.tc : Thread nD τ).loc main_arg7)) :=
    (second_arg7 (W2 m ρ c)).trans (afterFirst m ρ c main_arg7 (by decide) (first_arg7 (W0 m ρ c)))
  have e27 : V3 m ρ c main_v27 = shapeCast S1x128 (W2 m ρ c (Proc.devRef .tc main_arg8)) Gen.shapeCasts_S128_S1x128 := second_v27 (W2 m ρ c)
  have e8 : W2 m ρ c (Proc.devRef .tc main_arg8) = (m ((c.tc : Thread nD τ).loc main_arg8)) := afterFirst m ρ c main_arg8 (by decide) (first_arg8 (W0 m ρ c))
  have e9 : V3 m ρ c main_arg9 = (m ((c.tc : Thread nD τ).loc main_arg9)) :=
    (second_arg9 (W2 m ρ c)).trans (afterFirst m ρ c main_arg9 (by decide) (first_arg9 (W0 m ρ c)))
  have e28 : V3 m ρ c main_v28 = shapeCast S1x128 (W2 m ρ c (Proc.devRef .tc main_arg10)) Gen.shapeCasts_S128_S1x128 := second_v28 (W2 m ρ c)
  have e10 : W2 m ρ c (Proc.devRef .tc main_arg10) = (m ((c.tc : Thread nD τ).loc main_arg10)) := afterFirst m ρ c main_arg10 (by decide) (first_arg10 (W0 m ρ c))
  rw [e16, e26, e7, e27, e8, e9, e28, e10, rowOf_cast, rowOf_cast, sources, targets, conv1]
  rfl

/-- The result. -/
theorem result_eq : W6 m ρ c (Proc.devRef .tc main_v34)
    = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (W6_arr m ρ c 3).trans ?_
  rw [Blocks2.final]
  unfold Blocks2.result net
  have e32 : V5 m ρ c main_v32 = pool (F := Ideal) (W4 m ρ c (Proc.devRef .tc main_v29)) (W4 m ρ c (Proc.devRef .tc main_arg2)) := third_v32 (W4 m ρ c)
  have e2 : W4 m ρ c (Proc.devRef .tc main_arg2) = (m ((c.tc : Thread nD τ).loc main_arg2)) :=
    afterSecond m ρ c main_arg2 (by decide) (by decide) (first_arg2 (W0 m ρ c)) (second_arg2 (W2 m ρ c))
  have e11 : V5 m ρ c main_arg11 = (m ((c.tc : Thread nD τ).loc main_arg11)) :=
    (third_arg11 (W4 m ρ c)).trans (afterSecond m ρ c main_arg11 (by decide) (by decide) (first_arg11 (W0 m ρ c)) (second_arg11 (W2 m ρ c)))
  have e33 : V5 m ρ c main_v33 = shapeCast S1x128 (W4 m ρ c (Proc.devRef .tc main_arg12)) Gen.shapeCasts_S128_S1x128 := third_v33 (W4 m ρ c)
  have e12 : W4 m ρ c (Proc.devRef .tc main_arg12) = (m ((c.tc : Thread nD τ).loc main_arg12)) :=
    afterSecond m ρ c main_arg12 (by decide) (by decide) (first_arg12 (W0 m ρ c)) (second_arg12 (W2 m ρ c))
  rw [e32, e2, e11, e33, e12, rowOf_cast, conv2]

end Cert.KernelIdeal.Folded

end
-- ==== Proof.RefValue.lean ====
/-
  The reference program's result is the network of its arguments.

  Its composed term applies, on whole arrays, the host's dense layer with the rectifier five times, the
  neighbour sum twice and the pooling once, in the network's order. Each host layer is the layer row by
  row; what is left is the network's definition.
-/
import proofs.«160936_j26096221290965_1_alg».proof.Proof.Gen.ReferenceIdeal.Run
import proofs.«160936_j26096221290965_1_alg».proof.Proof.Network

set_option maxRecDepth 16384

noncomputable section

namespace Cert.GraphNet

open Cert.ReferenceIdeal Cert.ReferenceIdeal.Value Idealize.ShloMosaic Idealize.ShloMosaic.TcCoe Idealize.SL.Sem DenseLayer
open Cert.ReferenceIdeal.Facts₀ Cert.ReferenceIdeal.Facts

theorem reference_eq (m : (ℓ : Loc nD τ sig) → Buf (Elt Ideal) ℓ) (c : Dev nD) :
    res_main_v53 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) (m ((c.tc : Thread nD τ).loc main_arg10))
          (m ((c.tc : Thread nD τ).loc main_arg11)) (m ((c.tc : Thread nD τ).loc main_arg12)) := by
  have e : res_main_v53 (F := Ideal) m c
      = netHost (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) (m ((c.tc : Thread nD τ).loc main_arg10))
          (m ((c.tc : Thread nD τ).loc main_arg11)) (m ((c.tc : Thread nD τ).loc main_arg12)) := rfl
  exact e.trans (netHost_eq _ _ _ _ _ _ _ _ _ _ _ _ _)

end Cert.GraphNet

end
-- ==== Proof.lean ====
/-
  The proof of the claim: a graph network of two graph-isomorphism convolutions, a per-graph sum pooling and
  one dense layer, computed by three kernel regions among host gathers and scatter-adds, against the same
  network written as whole-array host operations.

  Over the extended reals a change of float format is the identity, so the kernel's dense layers (a vector
  matrix product into a zero accumulator, a bias row broadcast down the rows, a maximum with zero) and the
  host's (dot_general, the bias broadcast in two steps, a maximum with zero) are one function: at entry
  (r, j) both are max (∑ k, z (r, k) · W (k, j) + b j) 0. A row of a layer's result depends on the same row
  of its operand only, so the kernel's ten row blocks of 5000 rows tile the same array the host computes at
  once. The neighbour sums and the pooling are the same host operations on both sides, applied to operands
  that are equal, and are never opened. No law of arithmetic beyond the definition of a finite sum is used,
  so the finiteness of the inputs is not needed.

  The three frames are the generated ones (the reference's is its generated run with the result dropped);
  the kernel's sanctioned idealization rewrote nothing, so there is nothing to preserve.
-/
import proofs.«160936_j26096221290965_1_alg».proof.Defs
import proofs.«160936_j26096221290965_1_alg».proof.Proof.Gen.Kernel
import proofs.«160936_j26096221290965_1_alg».proof.Proof.Gen.Kernel.Skeleton
import proofs.«160936_j26096221290965_1_alg».proof.Proof.Gen.Kernel.Launch
import proofs.«160936_j26096221290965_1_alg».proof.Proof.Gen.Kernel.Points
import proofs.«160936_j26096221290965_1_alg».proof.Proof.Gen.Kernel.Frame
import proofs.«160936_j26096221290965_1_alg».proof.Proof.Gen.KernelIdeal
import proofs.«160936_j26096221290965_1_alg».proof.Proof.Gen.KernelIdeal.Skeleton
import proofs.«160936_j26096221290965_1_alg».proof.Proof.Gen.KernelIdeal.Launch
import proofs.«160936_j26096221290965_1_alg».proof.Proof.Gen.KernelIdeal.Points
import proofs.«160936_j26096221290965_1_alg».proof.Proof.Gen.KernelIdeal.Frame
import proofs.«160936_j26096221290965_1_alg».proof.Proof.Gen.ReferenceIdeal
import proofs.«160936_j26096221290965_1_alg».proof.Proof.Gen.ReferenceIdeal.Run
import proofs.«160936_j26096221290965_1_alg».proof.Proof.Gen.Pre_finite_inputs
import proofs.«160936_j26096221290965_1_alg».proof.Proof.KernelRun
import proofs.«160936_j26096221290965_1_alg».proof.Proof.KernelValue
import proofs.«160936_j26096221290965_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of their arguments in the result, and the arguments agree. -/
theorem algebraic : Cert.algebraic_KernelIdeal_ReferenceIdeal := by
  intro m ρ m' ρ' _ hagree
  refine ⟨fun c => Cert.KernelIdeal.Gen.W6 m ρ c (Proc.devRef .tc Cert.KernelIdeal.main_v34),
    Cert.KernelIdeal.ValueRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.GraphNet.reference_eq, h0, h1, h2, h3, h4, h5, h6, h7, h8, h9, h10, h11, h12]
  exact (Cert.KernelIdeal.Folded.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
